-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2x2 : Shape := ⟨3, ![16777216, 2, 2]⟩
abbrev S_ : Shape := ⟨0, ![]⟩

class Facts : Prop where
  bcast_S_S16777216x2x2 : S_.BroadcastsInDim S16777216x2x2 (![] : Fin 0 → Fin S16777216x2x2.rank)
  reducesTo_S16777216x2x2_S_d0_1_2 : S16777216x2x2.ReducesTo [0, 1, 2] S_
  h_S_ : 0 < S_.numel

variable [Facts]

def fn {F : FTy → Type} [FloatOps F] (main_arg0 : FVec F S16777216x2x2 .f32) : IVec S_ 1 :=
  let main_v0 : FVec F S16777216x2x2 .f32 := Host.absf main_arg0
  let main_cst : FVec F S_ .f32 := constant S_ .f32 0x7F800000#32
  let main_v1 : FVec F S16777216x2x2 .f32 := broadcastInDim S16777216x2x2 ![] bcast_S_S16777216x2x2 main_cst
  let main_v2 : IVec S16777216x2x2 1 := cmpf .olt main_v0 main_v1
  let main_c : IVec S_ 1 := constantI S_ 1 1#1
  let main_v3 : IVec S_ 1 := (fun x v => Host.reduce IntOp.andi x v reducesTo_S16777216x2x2_S_d0_1_2 h_S_) main_v2 main_c
  main_v3
-- ==== Kernel.lean ====
abbrev S16777216x2x2 : Shape := ⟨3, ![16777216, 2, 2]⟩
abbrev S16777216x4 : Shape := ⟨2, ![16777216, 4]⟩
abbrev S16777216 : Shape := ⟨1, ![16777216]⟩
abbrev S1048576x4 : Shape := ⟨2, ![1048576, 4]⟩
abbrev S1048576 : Shape := ⟨1, ![1048576]⟩
abbrev S1048576x1 : Shape := ⟨2, ![1048576, 1]⟩

abbrev nBuf : Space → Nat
  | .hbm => 3
  | .vmem => 4
  | .smem => 0
  | _ => 0

abbrev bufTy : (tb : Table) → Fin (tcTables nBuf tb) → BufTy
  | .hbm, ⟨0, _⟩ => ⟨S16777216x2x2, .f32⟩
  | .hbm, ⟨1, _⟩ => ⟨S16777216x4, .f32⟩
  | .hbm, ⟨2, _⟩ => ⟨S16777216, .f32⟩
  | .local _ .vmem, ⟨0, _⟩ => ⟨S1048576x4, .f32⟩
  | .local _ .vmem, ⟨1, _⟩ => ⟨S1048576x4, .f32⟩
  | .local _ .vmem, ⟨2, _⟩ => ⟨S1048576, .f32⟩
  | .local _ .vmem, ⟨3, _⟩ => ⟨S1048576, .f32⟩
  | _, _ => ⟨S16777216x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1048576x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1048576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16777216x2x2_S16777216x4 : S16777216x2x2.ShapeCasts S16777216x4
  inb_S1048576x4_S1048576x4_0_0 : ∀ a, (![0, 0] : Fin 2 → Nat) a + S1048576x4.size a ≤ S1048576x4.size a
  h_S1048576x4 : 0 < S1048576x4.numel
  shapeCasts_S1048576x4_S1048576x4 : S1048576x4.ShapeCasts S1048576x4
  slices_S1048576x4_o0_0_S1048576x1 : S1048576x4.Slices ![0, 0] S1048576x1
  shapeCasts_S1048576x1_S1048576 : S1048576x1.ShapeCasts S1048576
  slices_S1048576x4_o0_1_S1048576x1 : S1048576x4.Slices ![0, 1] S1048576x1
  slices_S1048576x4_o0_2_S1048576x1 : S1048576x4.Slices ![0, 2] S1048576x1
  slices_S1048576x4_o0_3_S1048576x1 : S1048576x4.Slices ![0, 3] S1048576x1
  inb_S1048576_S1048576_0 : ∀ a, (![0] : Fin 1 → Nat) a + S1048576.size a ≤ S1048576.size a
  h_S1048576 : 0 < S1048576.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1048576x4.size a ≤ S16777216x4.size a
  hwx0_0 : ∀ i : grid0.Coords, EltTy.bits .f32 = 32 ∨ (Rect.block (s := S16777216x4) S1048576x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1048576.size a ≤ S16777216.size a
  hwx0_1 : ∀ i : grid0.Coords, EltTy.bits .f32 = 32 ∨ (Rect.block (s := S16777216) S1048576.size (cc0_transform_1 i) (hinb0_1 i)).WholeWords (EltTy.packing .f32)

variable [Facts₀]

abbrev win0_0 : Pipeline.Window sig grid0 :=
  Pipeline.Window.ofSpec (Memref.whole main_v0) S1048576x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1048576.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2x2 : Shape := ⟨3, ![16777216, 2, 2]⟩
abbrev S16777216x1x1 : Shape := ⟨3, ![16777216, 1, 1]⟩
abbrev S16777216 : Shape := ⟨1, ![16777216]⟩

abbrev nBuf : Space → Nat
  | .hbm => 16
  | .vmem => 0
  | .smem => 0
  | _ => 0

abbrev bufTy : (tb : Table) → Fin (tcTables nBuf tb) → BufTy
  | .hbm, ⟨0, _⟩ => ⟨S16777216x2x2, .f32⟩
  | .hbm, ⟨1, _⟩ => ⟨S16777216x1x1, .f32⟩
  | .hbm, ⟨2, _⟩ => ⟨S16777216, .f32⟩
  | .hbm, ⟨3, _⟩ => ⟨S16777216x1x1, .f32⟩
  | .hbm, ⟨4, _⟩ => ⟨S16777216, .f32⟩
  | .hbm, ⟨5, _⟩ => ⟨S16777216x1x1, .f32⟩
  | .hbm, ⟨6, _⟩ => ⟨S16777216, .f32⟩
  | .hbm, ⟨7, _⟩ => ⟨S16777216x1x1, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | _, _ => ⟨S16777216x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩

abbrev nD : Nat := 1
abbrev τ : Topo := Topo.v7x

variable {F : FTy → Type} [FloatOps F]

class Facts₀ : Prop where
  slices_S16777216x2x2_S16777216x1x1_0_0_0 : S16777216x2x2.Slices ![0, 0, 0] S16777216x1x1
  shapeCasts_S16777216x1x1_S16777216 : S16777216x1x1.ShapeCasts S16777216
  slices_S16777216x2x2_S16777216x1x1_0_0_1 : S16777216x2x2.Slices ![0, 0, 1] S16777216x1x1
  slices_S16777216x2x2_S16777216x1x1_0_1_0 : S16777216x2x2.Slices ![0, 1, 0] S16777216x1x1
  slices_S16777216x2x2_S16777216x1x1_0_1_1 : S16777216x2x2.Slices ![0, 1, 1] S16777216x1x1

variable [Facts₀]

class Facts : Prop extends Facts₀ where

variable [Facts]
-- ==== Proof.TraceDet.lean ====
/-
  The function both programs compute.

  The argument holds one real 2×2 matrix per row index `r`,

      x(r, ·, ·) = [[a, b], [c, d]],      a = x(r,0,0), b = x(r,0,1), c = x(r,1,0), d = x(r,1,1),

  and the result at `r` is the matrix's trace plus the square root of the absolute value of its determinant,

      (a + d) + √|a·d − b·c|.

  Here it is written on the extended reals, with no hypothesis on the entries: sums, products and differences are
  those of `EReal`, `|y|` is `max y (−y)`, and `√` is the extended square root (`√⊤ = ⊤`, and `⊥` below zero).
  Both programs perform exactly these operations in exactly this order on the same four entries, so no algebraic law
  is needed to join them — in particular nothing that would ask the entries to be finite.
-/
import Idealize.ShloMosaic.PureOps.Ideal
import Idealize.ShloMosaic.Lib.ValueIdx

noncomputable section

namespace Cert.TraceDet

open Idealize.ShloMosaic Idealize.ShloMosaic.ValueIdx

/-- Trace plus the root of the absolute determinant of the matrix `[[a, b], [c, d]]`, on the extended reals. -/
def entry (a b c d : EReal) : EReal :=
  (a + d) + Ideal.sqrt (max (a * d - b * c) (-(a * d - b * c)))

/-- The result at row `r`: `entry` of that row's four matrix entries. -/
def traceDetAt (x : (⟨3, ![16777216, 2, 2]⟩ : Shape).Idx → EReal) (r : Fin 16777216) : EReal :=
  entry (x (ix3 r (0 : Fin 2) (0 : Fin 2))) (x (ix3 r (0 : Fin 2) (1 : Fin 2)))
    (x (ix3 r (1 : Fin 2) (0 : Fin 2))) (x (ix3 r (1 : Fin 2) (1 : Fin 2)))

/-- The whole result vector as one function of the argument array, index by index. -/
def traceDet (x : (⟨3, ![16777216, 2, 2]⟩ : Shape).Idx → EReal) : (⟨1, ![16777216]⟩ : Shape).Idx → EReal :=
  fun i => traceDetAt x (i 0)

/-- The float operations, read at the ideal instance, spell `entry`: addition, multiplication and subtraction are the
    extended reals', the absolute value is `max y (−y)`, and the kernel's square root is the extended one. -/
theorem entry_kernel_ops (a b c d : EReal) :
    FloatOps.addf (F := Ideal) (φ := .f32) (FloatOps.addf (F := Ideal) (φ := .f32) a d)
      (FloatOps.sqrt (F := Ideal) (φ := .f32) (FloatOps.absf (F := Ideal) (φ := .f32)
        (FloatOps.subf (F := Ideal) (φ := .f32) (FloatOps.mulf (F := Ideal) (φ := .f32) a d)
          (FloatOps.mulf (F := Ideal) (φ := .f32) b c))))
      = entry a b c d := rfl

/-- The same with the host's absolute value and the host's square root: at the ideal instance they are the very same
    functions as the kernel's. -/
theorem entry_host_ops (a b c d : EReal) :
    FloatOps.addf (F := Ideal) (φ := .f32) (FloatOps.addf (F := Ideal) (φ := .f32) a d)
      (FloatOps.hostUnary (F := Ideal) .sqrt (φ := .f32) (FloatOps.hostAbsf (F := Ideal) (φ := .f32)
        (FloatOps.subf (F := Ideal) (φ := .f32) (FloatOps.mulf (F := Ideal) (φ := .f32) a d)
          (FloatOps.mulf (F := Ideal) (φ := .f32) b c))))
      = entry a b c d := rfl

end Cert.TraceDet

end
-- ==== Proof.KernelValue.lean ====
/-
  The kernel computes `traceDet`.

  The kernel first merges the two trailing axes of the argument, [n, 2, 2] → [n, 4] (row-major: entry `(r, p, q)` lands
  at `(r, 2p + q)`), then walks the `n = 16 · 2^20` rows in 16 blocks of `2^20` rows. At grid point `t` it loads rows
  `t·2^20 … (t+1)·2^20 − 1` of the merged array, all four columns, takes columns 0, 1, 2, 3 as `a, b, c, d`, and stores
  `(a + d) + √|a·d − b·c|` into block `t` of the result vector.

  So: local row `ρ` of block `t` is row `r = t·2^20 + ρ` of the argument; column `2p + q` of that row is the matrix entry
  `(r, p, q)`; what the body stores at `ρ` is `entry` of the four entries of row `r`, which is `traceDet` at `r` — and `r`
  is exactly where element `ρ` of the output's block `t` sits in the result vector. The 16 blocks tile the vector (row `r`
  is in block `r / 2^20`), hence the vector ends as `traceDet` of the argument.
-/
import proofs.«161763_j61933428415478_1_alg».proof.Proof.Gen.KernelIdeal.Value
import proofs.«161763_j61933428415478_1_alg».proof.Proof.TraceDet
import Idealize.ShloMosaic.Lib.Pipeline.Value
import Idealize.ShloMosaic.Lib.StableHlo.Run
import Idealize.ShloMosaic.Lib.ValueIdx

noncomputable section

namespace Cert.KernelIdeal.TraceDetValue

open Cert.KernelIdeal Cert.KernelIdeal.Gen Idealize.ShloMosaic Idealize.ShloMosaic.TcCoe Idealize.SL.Sem
open Idealize.ShloMosaic.Pipeline (Dat)
open Idealize.ShloMosaic.ValueIdx Cert.TraceDet

variable (m : (ℓ : Loc nD τ sig) → Buf (Elt Ideal) ℓ) (ρ : Dev nD → PrngReg)

/-! ## The merged array and the input block -/

/-- The offset of the whole-block load. -/
theorem off_zero : (![0, 0] : Fin 2 → Nat) = fun _ => 0 := funext fun a => by fin_cases a <;> rfl

/-- The array the region reads is the argument with its two trailing axes merged. -/
theorem merged_eq (c : Dev nD) :
    (V m c main_v0 : S16777216x4.Idx → EReal)
      = shapeCast S16777216x4 (m ((c : Thread nD τ).loc main_arg0)) shapeCasts_S16777216x2x2_S16777216x4 := by
  dsimp only [Gen.V, Gen.hostOps0]; after_results; rfl

/-- Merging the trailing axes is row-major: the merged array at `(r, 2p + q)` is the argument at `(r, p, q)`. -/
theorem merged_apply (x : S16777216x2x2.Idx → EReal) (j : S16777216x4.Idx) (r : Fin 16777216) (p q : Fin 2)
    (hr : (j 0).val = r.val) (hc : (j 1).val = 2 * p.val + q.val) :
    shapeCast S16777216x4 x shapeCasts_S16777216x2x2_S16777216x4 j = x (ix3 r p q) :=
  shapeCast_apply x shapeCasts_S16777216x2x2_S16777216x4 j (ix3 r p q) (by
    rw [Shape.rowMajor_val_three, Shape.rowMajor_val_two]
    show (r.val * 2 + p.val) * 2 + q.val = (j 0).val * 4 + (j 1).val
    omega)

/-- The printed index maps over the 16 grid points: the input block moves with the output block along the rows and
    stays at column block 0, and the output's block index is below 16. -/
theorem idx_facts : ∀ t : Fin cfg0.N, win0_0.index t (0 : Fin 2) = win0_1.index t (0 : Fin 1)
    ∧ win0_0.index t (1 : Fin 2) = 0
    ∧ win0_1.index t (0 : Fin 1) ≤ 15 :=
  (by decide +kernel : ∀ t : Fin grid0.N, _)

/-- Every one of the 16 blocks of the result is some grid point's. -/
theorem idx_onto : ∀ k : Fin 16, ∃ t : Fin cfg0.N, win0_1.index t = ![k.val] :=
  (by decide +kernel : ∀ k : Fin 16, ∃ t : Fin grid0.N, win0_1.index t = ![k.val])

/-- THE INPUT BLOCK READ: at grid point `t`, local row `ρ` and column `2p + q` of the loaded block hold the argument's
    entry `(r, p, q)` for `r = (block index of t)·2^20 + ρ`. -/
theorem block_apply (c : Dev nD) (t : Fin cfg0.N) (y : S1048576x4.Idx) (r : Fin 16777216) (p q : Fin 2)
    (hr : r.val = win0_1.index t (0 : Fin 1) * 1048576 + (y 0).val) (hc : (y 1).val = 2 * p.val + q.val) :
    iblk m c 0 t y = m ((c : Thread nD τ).loc main_arg0) (ix3 r p q) := by
  obtain ⟨e0, e1, _⟩ := idx_facts t
  show V m c main_v0 (((cfg0.win 0).blk t).view.emb y) = _
  rw [merged_eq]
  refine merged_apply _ _ r p q ?_ ?_
  · show win0_0.index t (0 : Fin 2) * 1048576 + 1 * (y 0).val = r.val
    omega
  · show win0_0.index t (1 : Fin 2) * 4 + 1 * (y 1).val = 2 * p.val + q.val
    omega

/-! ## What the body leaves in the output block -/

/-- The body's block, as one function of a loaded block `X`, at local row `y`: if `X` holds the argument's rows as
    `block_apply` says, the value is `traceDet` at the corresponding row `r`. -/
theorem body_apply (X : Vec Ideal S1048576x4 .f32) (x : S16777216x2x2.Idx → EReal) (y : S1048576.Idx) (r : Fin 16777216)
    (hX : ∀ (y' : S1048576x4.Idx) (p q : Fin 2), (y' 0).val = (y 0).val → (y' 1).val = 2 * p.val + q.val →
      X y' = x (ix3 r p q)) :
    Value.E1 (F := Ideal) X y = traceDetAt x r := by
  show FloatOps.addf (F := Ideal) (φ := .f32) (FloatOps.addf (F := Ideal) (φ := .f32) (X (Value.ix1_0 y)) (X (Value.ix1_1 y)))
      (FloatOps.sqrt (F := Ideal) (φ := .f32) (FloatOps.absf (F := Ideal) (φ := .f32)
        (FloatOps.subf (F := Ideal) (φ := .f32) (FloatOps.mulf (F := Ideal) (φ := .f32) (X (Value.ix1_0 y)) (X (Value.ix1_1 y)))
          (FloatOps.mulf (F := Ideal) (φ := .f32) (X (Value.ix1_4 y)) (X (Value.ix1_5 y)))))) = _
  rewrite [hX (Value.ix1_0 y) (0 : Fin 2) (0 : Fin 2) rfl rfl, hX (Value.ix1_1 y) (1 : Fin 2) (1 : Fin 2) rfl rfl,
    hX (Value.ix1_4 y) (0 : Fin 2) (1 : Fin 2) rfl rfl, hX (Value.ix1_5 y) (1 : Fin 2) (0 : Fin 2) rfl rfl]
  exact entry_kernel_ops _ _ _ _

/-- WHAT POINT `t` WRITES BACK is block `t` of `traceDet` of the argument. -/
theorem flushed_eq (c : Dev nD) (t : Fin cfg0.N) :
    (dats m 0 c).flushed 1 t
      = ((cfg0.win 1).blk t).view.read (Elt Ideal) (traceDet (m ((c : Thread nD τ).loc main_arg0))) := by
  rw [Value.flushed1]
  unfold out0_1
  funext j
  refine (Value.canon1_eq (F := Ideal) (View.ld (iblk m c 0 t) r0_0) j).trans ?_
  rw [View.ld_unit_zero (S := S1048576x4) off_zero]
  show Value.E1 (F := Ideal) (iblk m c 0 t) j
    = traceDetAt (m ((c : Thread nD τ).loc main_arg0)) ((((cfg0.win 1).blk t).view.emb j) 0)
  refine body_apply _ _ j _ (fun y' p q h0 h1 => block_apply m c t y' _ p q ?_ h1)
  show win0_1.index t (0 : Fin 1) * 1048576 + 1 * (j 0).val = win0_1.index t (0 : Fin 1) * 1048576 + (y' 0).val
  omega

/-! ## From the blocks to the whole vector -/

/-- An index of the result is in point `t`'s block iff it lies in the block's row range. -/
theorem mem_block (t : Fin cfg0.N) (i : S16777216.Idx) :
    i ∈ ((cfg0.win 1).blk t).view.set ↔ ∀ a : Fin 1, win0_1.index t a * S1048576.size a ≤ (i a).val
      ∧ (i a).val < win0_1.index t a * S1048576.size a + S1048576.size a := by
  show i ∈ ((View.whole main_v1).slice (win0_1.rect t)).set ↔ _
  rw [View.set_slice_whole, Rect.mem_set_unit]
  exact Iff.rfl

/-- The 16 blocks tile the result: row `r` is in the block of index `r / 2^20`. -/
theorem cover (i : S16777216.Idx) :
    ∃ t : Fin cfg0.N, (cfg0.win 1).flush t = true ∧ i ∈ ((cfg0.win 1).blk t).view.set := by
  have hi : (i 0).val < 16777216 := (i 0).isLt
  obtain ⟨t, ht⟩ := idx_onto ⟨(i 0).val / 1048576, by omega⟩
  have hq : win0_1.index t (0 : Fin 1) = (i 0).val / 1048576 := congrFun ht 0
  refine ⟨t, flush0_1 t, ?_⟩
  rw [mem_block]
  intro a
  match a with
  | ⟨0, _⟩ =>
    show win0_1.index t (0 : Fin 1) * 1048576 ≤ (i 0).val ∧ (i 0).val < win0_1.index t (0 : Fin 1) * 1048576 + 1048576
    omega

/-- THE RESULT VECTOR after the run is `traceDet` of the argument. -/
theorem final (c : Dev nD) :
    (dats m 0 c).arrAt 1 cfg0.N = traceDet (m ((c : Thread nD τ).loc main_arg0)) :=
  (dats m 0 c).arrAt_eq_of_cover 1 (traceDet (m ((c : Thread nD τ).loc main_arg0)))
    (fun t _ => flushed_eq m c t) cover

/-- The kernel's run: every weakly fair execution terminates with the result vector at `traceDet` of the argument
    and the argument unchanged. -/
theorem run : θ_run defs (onTc (τ := τ) (main (F := Ideal))) ⟨m, fun _ => 0, ρ⟩ fun r => ∀ c : Dev nD,
      r.2.mem ((c : Thread nD τ).loc main_v1) = traceDet (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.TraceDetValue

end
-- ==== Proof.RefValue.lean ====
/-
  The reference computes `traceDet`.

  The reference takes the four entries of every matrix by four slices of the argument, `x[:, p, q]` for
  `p, q ∈ {0, 1}` — each a slice to shape [n, 1, 1] followed by a reshape to [n] —, and then forms
  `(a + d) + √|a·d − b·c|` with whole-vector operations. Read at a row index `r`, a slice-then-reshape reads the
  argument at `(r, p, q)`: the reshape sends `r` to `(r, 0, 0)` (the two trailing axes have extent one) and the slice adds
  its offsets `(0, p, q)`. The whole-vector operations act index by index, so the value at `r` is `entry` of the four
  entries of row `r`.
-/
import proofs.«161763_j61933428415478_1_alg».proof.Proof.Gen.ReferenceIdeal.Read
import proofs.«161763_j61933428415478_1_alg».proof.Proof.TraceDet

noncomputable section

namespace Cert.ReferenceIdeal.TraceDetValue

open Cert.ReferenceIdeal Cert.ReferenceIdeal.Gen Cert.ReferenceIdeal.Read
open Idealize.ShloMosaic Idealize.ShloMosaic.TcCoe Idealize.ShloMosaic.ValueIdx Cert.TraceDet

/-- Where the slice `x[:, 0, 0]`, reshaped to a vector, reads the argument: at `(r, 0, 0)`. -/
theorem idx_a (i : S16777216.Idx) :
    idx_main_v0 (idx_main_v1 i) = ix3 (i 0 : Fin 16777216) (0 : Fin 2) (0 : Fin 2) :=
  funext fun a => Fin.ext (by
    match a with
    | ⟨0, _⟩ => exact Nat.div_one _
    | ⟨1, _⟩ => rfl
    | ⟨2, _⟩ => rfl)

/-- Where the slice `x[:, 0, 1]` reads the argument: at `(r, 0, 1)`. -/
theorem idx_b (i : S16777216.Idx) :
    idx_main_v2 (idx_main_v3 i) = ix3 (i 0 : Fin 16777216) (0 : Fin 2) (1 : Fin 2) :=
  funext fun a => Fin.ext (by
    match a with
    | ⟨0, _⟩ => exact Nat.div_one _
    | ⟨1, _⟩ => rfl
    | ⟨2, _⟩ => rfl)

/-- Where the slice `x[:, 1, 0]` reads the argument: at `(r, 1, 0)`. -/
theorem idx_c (i : S16777216.Idx) :
    idx_main_v4 (idx_main_v5 i) = ix3 (i 0 : Fin 16777216) (1 : Fin 2) (0 : Fin 2) :=
  funext fun a => Fin.ext (by
    match a with
    | ⟨0, _⟩ => exact Nat.div_one _
    | ⟨1, _⟩ => rfl
    | ⟨2, _⟩ => rfl)

/-- Where the slice `x[:, 1, 1]` reads the argument: at `(r, 1, 1)`. -/
theorem idx_d (i : S16777216.Idx) :
    idx_main_v6 (idx_main_v7 i) = ix3 (i 0 : Fin 16777216) (1 : Fin 2) (1 : Fin 2) :=
  funext fun a => Fin.ext (by
    match a with
    | ⟨0, _⟩ => exact Nat.div_one _
    | ⟨1, _⟩ => rfl
    | ⟨2, _⟩ => rfl)

/-- The reference's last stage is `traceDet` of the argument: at every row the four slices deliver the row's four
    matrix entries, and the remaining operations are those of `entry`, the host's absolute value and square root
    being the extended reals' own. -/
theorem reference_eq (x : S16777216x2x2.Idx → EReal) :
    val_main_v14 (F := Ideal) x = traceDet x := by
  funext i
  rewrite [val_main_v14_apply, val_main_v8_apply, val_main_v13_apply, val_main_v12_apply, val_main_v11_apply,
    val_main_v9_apply, val_main_v10_apply, val_main_v1_apply, val_main_v7_apply, val_main_v3_apply, val_main_v5_apply,
    val_main_v0_apply, val_main_v6_apply, val_main_v2_apply, val_main_v4_apply, idx_a, idx_b, idx_c, idx_d]
  exact entry_host_ops _ _ _ _

end Cert.ReferenceIdeal.TraceDetValue

end
-- ==== Proof.lean ====
/-
  The certificate's five claims for the trace-plus-root-of-determinant kernel.

  The argument holds one 2×2 matrix `[[a, b], [c, d]]` per row; both programs return, per row,
  `(a + d) + √|a·d − b·c|` (Proof/TraceDet.lean: `traceDet`, on the extended reals).
    * The kernel merges the two trailing axes and processes the rows in 16 blocks; its result vector ends as `traceDet`
      of the argument (Proof/KernelValue.lean).
    * The reference slices the four entries out of the argument and combines them with whole-vector operations; its
      result is `traceDet` of the argument (Proof/RefValue.lean).
  The two agree operation for operation, so the equality holds for all extended-real entries and the precondition
  (finite inputs) is never opened. The three frames are the programs' runs with the result forgotten; the idealization
  rewrote nothing, so there is nothing to preserve.
-/
import proofs.«161763_j61933428415478_1_alg».proof.Defs
import proofs.«161763_j61933428415478_1_alg».proof.Proof.Gen.Kernel
import proofs.«161763_j61933428415478_1_alg».proof.Proof.Gen.Kernel.Frame
import proofs.«161763_j61933428415478_1_alg».proof.Proof.Gen.KernelIdeal
import proofs.«161763_j61933428415478_1_alg».proof.Proof.Gen.KernelIdeal.Frame
import proofs.«161763_j61933428415478_1_alg».proof.Proof.Gen.ReferenceIdeal
import proofs.«161763_j61933428415478_1_alg».proof.Proof.Gen.Pre_finite_inputs
import proofs.«161763_j61933428415478_1_alg».proof.Proof.Gen.KernelIdeal.Value
import proofs.«161763_j61933428415478_1_alg».proof.Proof.Gen.ReferenceIdeal.Run
import proofs.«161763_j61933428415478_1_alg».proof.Proof.Gen.ReferenceIdeal.Read
import proofs.«161763_j61933428415478_1_alg».proof.Proof.TraceDet
import proofs.«161763_j61933428415478_1_alg».proof.Proof.KernelValue
import proofs.«161763_j61933428415478_1_alg».proof.Proof.RefValue

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the result vector at `traceDet` of it: the kernel by
    its run (the 16 blocks tile the vector), the reference by its run read stage by stage. -/
theorem algebraic : Cert.algebraic_KernelIdeal_ReferenceIdeal := by
  intro m ρ m' ρ' _ hagree
  refine ⟨fun c => Cert.TraceDet.traceDet (m ((c.tc : Thread Cert.KernelIdeal.nD Cert.KernelIdeal.τ).loc Cert.KernelIdeal.main_arg0)),
    Cert.KernelIdeal.TraceDetValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.TraceDetValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
